-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : IVec S4096x4096 32) (main_arg2 : FVec F S4096 .f32) (main_arg3 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S128x4096 : Shape := ⟨2, ![128, 4096]⟩

abbrev nBuf : Space → Nat
  | .hbm => 10
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .bf16⟩
  | .hbm, ⟨5, _⟩ => ⟨S4096x4096, .bf16⟩
  | .hbm, ⟨6, _⟩ => ⟨S16384x4096, .bf16⟩
  | .hbm, ⟨7, _⟩ => ⟨S1x4096, .f32⟩
  | .hbm, ⟨8, _⟩ => ⟨S1x4096, .f32⟩
  | .hbm, ⟨9, _⟩ => ⟨S16384x4096, .f32⟩
  | .local _ .vmem, ⟨0, _⟩ => ⟨S128x4096, .bf16⟩
  | .local _ .vmem, ⟨1, _⟩ => ⟨S128x4096, .bf16⟩
  | .local _ .vmem, ⟨2, _⟩ => ⟨S4096x4096, .bf16⟩
  | .local _ .vmem, ⟨3, _⟩ => ⟨S1x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .bf16 = 32 ∨ (Rect.block (s := S16384x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S16384x4096.size a
  hwx0_4 : ∀ i : grid0.Coords, EltTy.bits .f32 = 32 ∨ (Rect.block (s := S16384x4096) S128x4096.size (cc0_transform_4 i) (hinb0_4 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v2) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Finite.lean ====
/-
  The precondition makes the float inputs real.

  The precondition is the conjunction of three checks, one per float input (tokens, scale, bias): every entry x
  satisfies |x| < +∞. On the extended reals |x| = max x (−x), which is +∞ at both infinities, so an entry that passes
  the check is (the coercion of) a real number. The layer's law needs this of the tokens and of the scale.
-/
import proofs.«168100_j56478819942551_2_alg».proof.Proof.Gen.Pre_finite_inputs
import Idealize.ShloMosaic.PureOps.Ideal
import Idealize.ShloMosaic.Lib.ReduceAll
import Idealize.ShloMosaic.Lib.ValueIdx

noncomputable section

namespace Cert.QuantDense.Finite

open Idealize.ShloMosaic Idealize.ShloMosaic.ValueIdx Cert.Pre_finite_inputs

/-- An extended real whose absolute value is below +∞ is a real number. -/
theorem real_of_abs_lt_top (x : EReal)
    (h : Ideal.cmp .olt (max x (-x)) (Ideal.ofBits .f32 0x7F800000#32) = 1#1) : ∃ a : ℝ, x = (a : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | coe a => exact ⟨a, rfl⟩
  | top => simp at hlt

instance : Subsingleton S_.Idx := ⟨fun a b => funext fun d => d.elim0⟩

variable [Cert.Pre_finite_inputs.Facts]

/-- Under the precondition every token entry and every scale entry is a real number. -/
theorem real_inputs (x : FVec Ideal S16384x4096 .f32) (q : IVec S4096x4096 32) (s b : FVec Ideal S4096 .f32)
    (h : Cert.Pre_finite_inputs.fn (F := Ideal) x q s b = fun _ => 1#1) :
    (∀ i, ∃ a : ℝ, x i = (a : EReal)) ∧ (∀ j, ∃ r : ℝ, s j = (r : EReal)) := by
  have h0 := congrFun h ix0
  dsimp only [Cert.Pre_finite_inputs.fn] at h0
  obtain ⟨hxs, -⟩ := IntOp.andi_eq_one.1 h0
  obtain ⟨hx, hs⟩ := IntOp.andi_eq_one.1 hxs
  exact ⟨fun i => real_of_abs_lt_top _ (Host.reduce_andi_all _ _ _ _ ix0 hx i),
    fun j => real_of_abs_lt_top _ (Host.reduce_andi_all _ _ _ _ ix0 hs j)⟩

end Cert.QuantDense.Finite

end
-- ==== Proof.Spec.lean ====
/-
  The dequantized dense layer as one function of the argument arrays.

  With tokens x : [16384, 4096], integer weight codes q : [4096 out, 4096 in], a per-output-channel scale s and a bias b,
  the layer's output at token t and output channel o is

      out[t, o] = (∑ k, x[t, k] · q[o, k]) · s[o] + b[o]        (the scale applied AFTER the contraction),

  where q[o, k] is the integer code read as a real number. Dequantizing the weight first gives instead

      out[t, o] = ∑ k, x[t, k] · (q[o, k] · s[o]) + b[o]         (the scale applied INSIDE the contraction).

  The two agree by distributivity of · over a finite sum. On the extended reals that law fails at the infinities,
  so it is proved here for REAL x and s (each the coercion of a real number): then every term of both sums is real, the
  sums are real, and the law is the one of ℝ. The bias plays no part: it is added to both sides.
-/
import Idealize.ShloMosaic.PureOps.Ideal
import Idealize.ShloMosaic.Lib.ValueIdx

noncomputable section

namespace Cert.QuantDense

open Idealize.ShloMosaic Idealize.ShloMosaic.ValueIdx

/-- Tokens × features, and the layer's output: 16384 rows of 4096. -/
abbrev Tok : Shape := ⟨2, ![16384, 4096]⟩
/-- The weight codes, [out, in]. -/
abbrev Wt : Shape := ⟨2, ![4096, 4096]⟩
/-- One value per output channel. -/
abbrev Ch : Shape := ⟨1, ![4096]⟩

/-- An integer weight code as an extended real. -/
abbrev code (n : BitVec 32) : EReal := ((n.toInt : ℝ) : EReal)

/-- The layer's output at token `t` and output channel `o`, the scale applied after the contraction:
    `(∑ k, x[t,k] · q[o,k]) · s[o] + b[o]`. -/
def denseAt (x : Tok.Idx → EReal) (q : Wt.Idx → BitVec 32) (s b : Ch.Idx → EReal) (t : Fin 16384) (o : Fin 4096) : EReal :=
  (∑ k : Fin 4096, x (ix2 t k) * code (q (ix2 o k))) * s (ix1 o) + b (ix1 o)

/-- The layer's whole output array. -/
def dense (x : Tok.Idx → EReal) (q : Wt.Idx → BitVec 32) (s b : Ch.Idx → EReal) : Tok.Idx → EReal :=
  fun i => denseAt x q s b (i 0) (i 1)

theorem dense_ix2 (x : Tok.Idx → EReal) (q : Wt.Idx → BitVec 32) (s b : Ch.Idx → EReal) (t : Fin 16384) (o : Fin 4096) :
    dense x q s b (ix2 t o) = denseAt x q s b t o := rfl

/-- A finite sum of real numbers, summed in the extended reals, is the real sum. -/
theorem coe_sum {ι : Type} (S : Finset ι) (f : ι → ℝ) :
    (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- A real factor common to every term of a finite sum of reals comes out of the sum, in the extended reals. -/
theorem sum_mul_real {ι : Type} [Fintype ι] (a n : ι → ℝ) (r : ℝ) :
    (∑ k, ((a k : ℝ) : EReal) * (((n k : ℝ) : EReal) * ((r : ℝ) : EReal)))
      = (∑ k, ((a k : ℝ) : EReal) * ((n k : ℝ) : EReal)) * ((r : ℝ) : EReal) := by
  simp only [← EReal.coe_mul, coe_sum]
  rw [Finset.sum_mul]
  exact congrArg _ (Finset.sum_congr rfl fun k _ => by ring)

/-- THE LAW: for real tokens and real scales, scaling the weight inside the contraction is scaling the contraction. -/
theorem scaled_inside_eq_denseAt (x : Tok.Idx → EReal) (q : Wt.Idx → BitVec 32) (s b : Ch.Idx → EReal)
    (hx : ∀ i, ∃ a : ℝ, x i = (a : EReal)) (hs : ∀ j, ∃ r : ℝ, s j = (r : EReal)) (t : Fin 16384) (o : Fin 4096) :
    (∑ k : Fin 4096, x (ix2 t k) * (code (q (ix2 o k)) * s (ix1 o))) + b (ix1 o) = denseAt x q s b t o := by
  choose a ha using hx
  obtain ⟨r, hr⟩ := hs (ix1 o)
  unfold denseAt
  refine congrArg (· + b (ix1 o)) ?_
  rw [hr]
  simp only [ha, code]
  exact sum_mul_real (fun k => a (ix2 t k)) (fun k => ((q (ix2 o k)).toInt : ℝ)) r

end Cert.QuantDense

end
-- ==== Proof.RefDense.lean ====
/-
  The reference program's result is the dense layer.

  The reference dequantizes first: it converts the weight codes to floats, multiplies row o of the weight by s[o]
  (the scale broadcast along the input-feature axis), transposes, contracts the tokens with the transposed scaled weight,
  and adds the bias broadcast along the token axis. Read at the index (t, o) this is

      ∑ k, x[t, k] · (q[o, k] · s[o]) + b[o],

  the layer with the scale applied inside the contraction. For real tokens and scales that is `dense`
  (Spec.lean `scaled_inside_eq_denseAt`).
-/
import proofs.«168100_j56478819942551_2_alg».proof.Proof.Gen.ReferenceIdeal.Read
import proofs.«168100_j56478819942551_2_alg».proof.Proof.Spec

noncomputable section

namespace Cert.QuantDense.Reference

open Cert.ReferenceIdeal Cert.ReferenceIdeal.Read Idealize.ShloMosaic Idealize.ShloMosaic.ValueIdx Cert.QuantDense

/-- An integer converted to a float is, on the extended reals, the integer. -/
theorem sitofp_code (φ : FTy) (n : BitVec 32) : FloatOps.sitofp (F := Ideal) φ n = code n := rfl

/-- The contraction's left operand index at output (t, o) and contraction index k is (t, k). -/
theorem lidx_eq (t : Fin 16384) (o k : Fin 4096) : lidx_main_v5 (ix2 t o) k = ix2 t k :=
  funext fun a => Fin.ext (by match a with | ⟨0, _⟩ => rfl | ⟨1, _⟩ => rfl)

/-- Its right operand index (k, o), read through the transpose, is the weight's (o, k). -/
theorem widx_eq (t : Fin 16384) (o k : Fin 4096) : idx_main_v4 (ridx_main_v5 (ix2 t o) k) = ix2 o k :=
  funext fun a => Fin.ext (by match a with | ⟨0, _⟩ => rfl | ⟨1, _⟩ => rfl)

/-- The scale that multiplies the weight's entry (o, k) is the one of output channel o. -/
theorem sidx_eq (o k : Fin 4096) : idx_main_v1 (idx_main_v2 (ix2 o k)) = ix1 o :=
  funext fun a => Fin.ext (by match a with | ⟨0, _⟩ => rfl)

/-- The bias added at output (t, o) is the one of output channel o. -/
theorem bidx_eq (t : Fin 16384) (o : Fin 4096) : idx_main_v6 (idx_main_v7 (ix2 t o)) = ix1 o :=
  funext fun a => Fin.ext (by match a with | ⟨0, _⟩ => rfl)

/-- THE REFERENCE'S RESULT, for real tokens and real scales, is the dense layer of its arguments. -/
theorem result_eq_dense (x : FVec Ideal S16384x4096 .f32) (q : IVec S4096x4096 32) (s b : FVec Ideal S4096 .f32)
    (hx : ∀ i, ∃ a : ℝ, x i = (a : EReal)) (hs : ∀ j, ∃ r : ℝ, s j = (r : EReal)) :
    val_main_v8 (F := Ideal) x q s b = dense x q s b := by
  funext i
  obtain ⟨t, o, rfl⟩ : ∃ (t : Fin 16384) (o : Fin 4096), i = ix2 t o := ⟨i 0, i 1, eq_ix2 i⟩
  rw [dense_ix2, val_main_v8_apply, val_main_v5_apply, val_main_v7_apply, val_main_v6_apply, bidx_eq, Ideal.addf_def]
  refine (congrArg (· + b (ix1 o)) (Finset.sum_congr rfl fun k _ => ?_)).trans
    (scaled_inside_eq_denseAt x q s b hx hs t o)
  rw [lidx_eq, val_main_v4_apply, widx_eq, val_main_v3_apply, val_main_v0_apply, val_main_v2_apply,
    val_main_v1_apply, sidx_eq, sitofp_code, Ideal.mulf_def]

end Cert.QuantDense.Reference

end
-- ==== Proof.Tile.lean ====
/-
  What the kernel body computes on one tile of 128 tokens.

  The body loads a tile X of 128 token rows (all 4096 input features), the whole transposed weight W' : [in, out],
  the scale row and the bias row (each [1, 4096]), and stores

      (X · W') ∘ (scale row repeated over the 128 rows) + (bias row repeated over the 128 rows).

  The matrix product is accumulated into a zero tile, so at row p and output channel o the stored value is

      (∑ k, X[p, k] · W'[k, o]) · scale[0, o] + bias[0, o].
-/
import proofs.«168100_j56478819942551_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.QuantDense.Tile

open Cert.KernelIdeal Cert.KernelIdeal.Gen Idealize.ShloMosaic Idealize.ShloMosaic.ValueIdx

/-- The tile's contraction: the tile's feature axis against the transposed weight's input axis, no batch axis. -/
abbrev tileDot : DotDims S128x4096 S4096x4096 S128x4096 := dot_S128x4096_S4096x4096_S128x4096_1_0_0_1_n_n

/-! ## The contraction's operand indices -/

theorem lhs_row (j : S128x4096.Idx) (c : tileDot.contr.Idx) : (tileDot.lhsIdx j c 0).val = (j 0).val := by
  unfold DotDims.lhsIdx
  rw [dif_neg (show ¬(0 : Fin S128x4096.rank) ∈ tileDot.lhsBatch by decide),
    dif_pos (show (0 : Fin S128x4096.rank) ∈ tileDot.lhsNonContracting by decide)]
  rfl

theorem lhs_col (j : S128x4096.Idx) (c : tileDot.contr.Idx) : (tileDot.lhsIdx j c 1).val = (c ⟨0, by decide⟩).val :=
  tileDot.lhsIdx_val_of_single rfl j c

theorem rhs_row (j : S128x4096.Idx) (c : tileDot.contr.Idx) : (tileDot.rhsIdx j c 0).val = (c ⟨0, by decide⟩).val :=
  tileDot.rhsIdx_val_of_single rfl j c

theorem rhs_col (j : S128x4096.Idx) (c : tileDot.contr.Idx) : (tileDot.rhsIdx j c 1).val = (j 1).val := by
  unfold DotDims.rhsIdx
  rw [dif_neg (show ¬(1 : Fin S4096x4096.rank) ∈ tileDot.rhsBatch by decide),
    dif_pos (show (1 : Fin S4096x4096.rank) ∈ tileDot.rhsNonContracting by decide)]
  rfl

/-! ## The body's two non-pointwise operations, read at an index -/

/-- The matrix product into a zero tile, at row `p` and column `o`, is the sum over the 4096 input features. -/
theorem matmul_zero_apply (l : FVec Ideal S128x4096 .bf16) (r : FVec Ideal S4096x4096 .bf16) (p : Fin 128) (o : Fin 4096) :
    matmul tileDot none l r (constant (F := Ideal) S128x4096 .f32 0x00000000#32) (ix2 p o)
      = ∑ k : Fin 4096, l (ix2 p k) * r (ix2 k o) := by
  show FloatOps.matmul tileDot none l r (constant (F := Ideal) S128x4096 .f32 0x00000000#32) (ix2 p o) = _
  rw [Ideal.matmul_constant_zero_apply, ← Equiv.sum_comp (contrEquiv1 tileDot 4096 rfl rfl).symm]
  refine Finset.sum_congr rfl fun k _ => ?_
  have hk := contrEquiv1_symm_val tileDot 4096 rfl rfl k
  have el : tileDot.lhsIdx (ix2 p o) ((contrEquiv1 tileDot 4096 rfl rfl).symm k) = ix2 p k :=
    funext fun a => Fin.ext (by
      match a with
      | ⟨0, _⟩ => exact lhs_row _ _
      | ⟨1, _⟩ => exact (lhs_col _ _).trans hk)
  have er : tileDot.rhsIdx (ix2 p o) ((contrEquiv1 tileDot 4096 rfl rfl).symm k) = ix2 k o :=
    funext fun a => Fin.ext (by
      match a with
      | ⟨0, _⟩ => exact (rhs_row _ _).trans hk
      | ⟨1, _⟩ => exact rhs_col _ _)
  rw [el, er]

/-- A [1, 4096] row repeated over 128 rows reads, at (p, o), the row at (0, o). -/
theorem row_repeat_apply (v : FVec Ideal S1x4096 .f32) (h : S1x4096.Broadcasts S128x4096) (p : Fin 128) (o : Fin 4096) :
    broadcastTo S128x4096 v h (ix2 p o) = v (ix2 (0 : Fin 1) o) :=
  broadcastTo_apply v h (ix2 p o) (ix2 (0 : Fin 1) o) (fun a => match a with
    | ⟨0, _⟩ => by show 0 = if (1 : Nat) = 1 then 0 else _; rw [if_pos rfl]
    | ⟨1, _⟩ => by show o.val = if (4096 : Nat) = 1 then 0 else o.val; rw [if_neg (by decide)])

/-! ## The stored tile -/

/-- THE BODY'S STORED VALUE at row `p`, output channel `o`: the contraction of row `p` of the token tile with
    column `o` of the transposed weight, times the scale row at `o`, plus the bias row at `o`. -/
theorem stored_apply (X : Vec Ideal S128x4096 .bf16) (W' : Vec Ideal S4096x4096 .bf16) (srow brow : Vec Ideal S1x4096 .f32)
    (p : Fin 128) (o : Fin 4096) :
    k0_pay1 (F := Ideal) X W' srow brow (ix2 p o)
      = (∑ k : Fin 4096, X (ix2 p k) * W' (ix2 k o)) * srow (ix2 (0 : Fin 1) o) + brow (ix2 (0 : Fin 1) o) := by
  unfold k0_pay1
  simp only [shapeCast_self]
  rw [addf_apply, mulf_apply, row_repeat_apply, row_repeat_apply]
  exact congrArg (fun z => z * srow (ix2 (0 : Fin 1) o) + brow (ix2 (0 : Fin 1) o)) (matmul_zero_apply X W' p o)

end Cert.QuantDense.Tile

end
-- ==== Proof.Tiling.lean ====
/-
  The kernel's output array is the dense layer: 128 tiles of 128 token rows.

  Grid point t works on token rows 128·t … 128·t + 127: it reads that row tile of the tokens, the WHOLE transposed
  weight, the whole scale row and the whole bias row, and writes back the same row tile of the output. Before the
  grid runs, the host prepares the operands: the tokens narrowed to a shorter float format (no change of value on the
  extended reals), the weight codes converted to floats and transposed to [in, out], and the scale and the bias
  re-laid as [1, 4096] rows.

  So row p of the tile at point t is row 128·t + p of the tokens, entry (k, o) of the transposed weight is the code
  q[o, k], entry (0, o) of a row is entry o of the vector, and what point t writes back at (p, o) is
  `denseAt` at (128·t + p, o) (Tile.lean `stored_apply`). The 128 tiles are disjoint and every row lies in tile
  ⌊row / 128⌋, so after the run the output array is `dense` of the argument arrays.
-/
import proofs.«168100_j56478819942551_2_alg».proof.Proof.Gen.KernelIdeal.Value
import proofs.«168100_j56478819942551_2_alg».proof.Proof.Spec
import proofs.«168100_j56478819942551_2_alg».proof.Proof.Tile
import Idealize.ShloMosaic.Lib.StableHlo.Run
import Idealize.ShloMosaic.Lib.ValueLayout

noncomputable section

namespace Cert.QuantDense.Kernel

open Cert.KernelIdeal Cert.KernelIdeal.Gen Idealize.ShloMosaic Idealize.ShloMosaic.TcCoe Idealize.SL.Sem
open Idealize.ShloMosaic.StableHlo Idealize.ShloMosaic.ValueIdx Cert.QuantDense
open Idealize.ShloMosaic.Pipeline (Dat)

variable (m : (ℓ : Loc nD τ sig) → Buf (Elt Ideal) ℓ) (ρ : Dev nD → PrngReg)

/-! ## One tile entry from the operands' entries -/

/-- If row `p` of a token tile is row `R` of the tokens, column `o` of the transposed weight is row `o` of the codes,
    and the two rows hold the scale and the bias, the body's stored value at (p, o) is the layer at (R, o). -/
theorem stored_eq_denseAt (x : Tok.Idx → EReal) (q : Wt.Idx → BitVec 32) (s b : Ch.Idx → EReal)
    (X : Vec Ideal S128x4096 .bf16) (W' : Vec Ideal S4096x4096 .bf16) (srow brow : Vec Ideal S1x4096 .f32)
    (R : Fin 16384) (p : Fin 128) (o : Fin 4096)
    (hX : ∀ k : Fin 4096, X (ix2 p k) = x (ix2 R k))
    (hW : ∀ k : Fin 4096, W' (ix2 k o) = code (q (ix2 o k)))
    (hs : srow (ix2 (0 : Fin 1) o) = s (ix1 o)) (hb : brow (ix2 (0 : Fin 1) o) = b (ix1 o)) :
    k0_pay1 (F := Ideal) X W' srow brow (ix2 p o) = denseAt x q s b R o := by
  rw [Tile.stored_apply, hs, hb]
  unfold denseAt
  exact congrArg (fun z => z * s (ix1 o) + b (ix1 o)) (Finset.sum_congr rfl fun k _ => by rw [hX k, hW k])

/-! ## The operand arrays as the grid finds them -/

/-- The narrowed tokens are the tokens. -/
theorem tokens_at (c : Dev nD) (i : S16384x4096.Idx) : V m c main_v2 i = m ((c : Thread nD τ).loc main_arg0) i := by
  have e : (V m c main_v2 : S16384x4096.Idx → EReal)
      = (truncf (F := Ideal) .bf16 (m ((c : Thread nD τ).loc main_arg0) : FVec Ideal S16384x4096 .f32) bitsLt_bf16_f32
          : FVec Ideal S16384x4096 .bf16) := by
    dsimp only [V, hostOps0]; after_results; all_goals rfl
  exact congrFun e i

/-- The transposed float weight at (k, o) is the code at (o, k). -/
theorem weight_at (c : Dev nD) (k o : Fin 4096) :
    V m c main_v1 (ix2 k o) = code (m ((c : Thread nD τ).loc main_arg1) (ix2 o k)) := by
  have e : (V m c main_v1 : S4096x4096.Idx → EReal)
      = (transpose S4096x4096 [1, 0]
          (sitofp (F := Ideal) .bf16 (m ((c : Thread nD τ).loc main_arg1) : IVec S4096x4096 32) : FVec Ideal S4096x4096 .bf16)
          transposes_S4096x4096_S4096x4096_1_0 : FVec Ideal S4096x4096 .bf16) := by
    dsimp only [V, hostOps0]; after_results; all_goals rfl
  exact (congrFun e (ix2 k o)).trans (transpose_ix2_apply _ _ k o)

/-- The scale row at (0, o) is the scale at o. -/
theorem scale_at (c : Dev nD) (o : Fin 4096) :
    V m c main_v3 (ix2 (0 : Fin 1) o) = m ((c : Thread nD τ).loc main_arg2) (ix1 o) := by
  have e : (V m c main_v3 : S1x4096.Idx → EReal)
      = (shapeCast S1x4096 (m ((c : Thread nD τ).loc main_arg2) : S4096.Idx → EReal) shapeCasts_S4096_S1x4096
          : S1x4096.Idx → EReal) := by
    dsimp only [V, hostOps0]; after_results; all_goals rfl
  exact (congrFun e (ix2 (0 : Fin 1) o)).trans (shapeCast_a_1a_apply _ _ (0 : Fin 1) o)

/-- The bias row at (0, o) is the bias at o. -/
theorem bias_at (c : Dev nD) (o : Fin 4096) :
    V m c main_v4 (ix2 (0 : Fin 1) o) = m ((c : Thread nD τ).loc main_arg3) (ix1 o) := by
  have e : (V m c main_v4 : S1x4096.Idx → EReal)
      = (shapeCast S1x4096 (m ((c : Thread nD τ).loc main_arg3) : S4096.Idx → EReal) shapeCasts_S4096_S1x4096
          : S1x4096.Idx → EReal) := by
    dsimp only [V, hostOps0]; after_results; all_goals rfl
  exact (congrFun e (ix2 (0 : Fin 1) o)).trans (shapeCast_a_1a_apply _ _ (0 : Fin 1) o)

/-! ## Which blocks a grid point reads and writes -/

theorem origin : (![0, 0] : Fin 2 → Nat) = fun _ => 0 := funext fun a => by fin_cases a <;> rfl

/-- Point t's token block and output block are block-row t; the weight, scale and bias blocks are the whole arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- The token row that row `p` of point `t`'s tile is. -/
def tokRow (t : Fin cfg0.N) (p : Fin 128) : Fin 16384 :=
  ⟨t.val * 128 + p.val, by have := point_lt t; have := p.isLt; omega⟩

/-- Row p of point t's token tile is token row 128·t + p. -/
theorem read_tokens (c : Dev nD) (t : Fin cfg0.N) (p : Fin 128) (k : Fin 4096) :
    iblk m c 0 t (ix2 p k) = m ((c : Thread nD τ).loc main_arg0) (ix2 (tokRow t p) k) := by
  obtain ⟨e0, e1, -⟩ := block_indices t
  show V m c main_v2 (((cfg0.win 0).blk t).view.emb (ix2 p k)) = _
  refine (congrArg (V m c main_v2) (funext fun a => Fin.ext ?_)).trans (tokens_at m c (ix2 (tokRow t p) k))
  match a with
  | ⟨0, _⟩ => show win0_0.index t (0 : Fin 2) * 128 + 1 * p.val = t.val * 128 + p.val; omega
  | ⟨1, _⟩ => show win0_0.index t (1 : Fin 2) * 4096 + 1 * k.val = k.val; omega

/-- The weight block is the whole transposed weight: its (k, o) entry is the code q[o, k]. -/
theorem read_weight (c : Dev nD) (t : Fin cfg0.N) (k o : Fin 4096) :
    iblk m c 1 t (ix2 k o) = code (m ((c : Thread nD τ).loc main_arg1) (ix2 o k)) := by
  obtain ⟨-, -, e0, e1, -⟩ := block_indices t
  show V m c main_v1 (((cfg0.win 1).blk t).view.emb (ix2 k o)) = _
  refine (congrArg (V m c main_v1) (funext fun a => Fin.ext ?_)).trans (weight_at m c k o)
  match a with
  | ⟨0, _⟩ => show win0_1.index t (0 : Fin 2) * 4096 + 1 * k.val = k.val; omega
  | ⟨1, _⟩ => show win0_1.index t (1 : Fin 2) * 4096 + 1 * o.val = o.val; omega

/-- The scale block is the whole scale row. -/
theorem read_scale (c : Dev nD) (t : Fin cfg0.N) (o : Fin 4096) :
    iblk m c 2 t (ix2 (0 : Fin 1) o) = m ((c : Thread nD τ).loc main_arg2) (ix1 o) := by
  obtain ⟨-, -, -, -, e0, e1, -⟩ := block_indices t
  show V m c main_v3 (((cfg0.win 2).blk t).view.emb (ix2 (0 : Fin 1) o)) = _
  refine (congrArg (V m c main_v3) (funext fun a => Fin.ext ?_)).trans (scale_at m c o)
  match a with
  | ⟨0, _⟩ => show win0_2.index t (0 : Fin 2) * 1 + 1 * 0 = 0; omega
  | ⟨1, _⟩ => show win0_2.index t (1 : Fin 2) * 4096 + 1 * o.val = o.val; omega

/-- The bias block is the whole bias row. -/
theorem read_bias (c : Dev nD) (t : Fin cfg0.N) (o : Fin 4096) :
    iblk m c 3 t (ix2 (0 : Fin 1) o) = m ((c : Thread nD τ).loc main_arg3) (ix1 o) := by
  obtain ⟨-, -, -, -, -, -, e0, e1, -⟩ := block_indices t
  show V m c main_v4 (((cfg0.win 3).blk t).view.emb (ix2 (0 : Fin 1) o)) = _
  refine (congrArg (V m c main_v4) (funext fun a => Fin.ext ?_)).trans (bias_at m c o)
  match a with
  | ⟨0, _⟩ => show win0_3.index t (0 : Fin 2) * 1 + 1 * 0 = 0; omega
  | ⟨1, _⟩ => show win0_3.index t (1 : Fin 2) * 4096 + 1 * o.val = o.val; omega

/-! ## What a grid point writes back -/

/-- The layer of the argument arrays on core `c`. -/
abbrev layer (c : Dev nD) : S16384x4096.Idx → EReal :=
  dense (m ((c : Thread nD τ).loc main_arg0)) (m ((c : Thread nD τ).loc main_arg1))
    (m ((c : Thread nD τ).loc main_arg2)) (m ((c : Thread nD τ).loc main_arg3))

/-- WHAT POINT `t` WRITES BACK is block-row `t` of the layer. -/
theorem flushed_eq (c : Dev nD) (t : Fin cfg0.N) :
    (dats m 0 c).flushed 4 t = ((cfg0.win 4).blk t).view.read (Elt Ideal) (layer m c) := by
  rw [Cert.KernelIdeal.Value.flushed4]
  unfold out0_4
  rw [View.canon_unit_zero origin]
  simp only [View.ld_unit_zero (S := S128x4096) origin, View.ld_unit_zero (S := S4096x4096) origin,
    View.ld_unit_zero (S := S1x4096) origin]
  funext j
  obtain ⟨p, o, rfl⟩ : ∃ (p : Fin 128) (o : Fin 4096), j = ix2 p o := ⟨j 0, j 1, eq_ix2 j⟩
  obtain ⟨-, -, -, -, -, -, -, -, e0, e1⟩ := block_indices t
  show k0_pay1 (iblk m c 0 t) (iblk m c 1 t) (iblk m c 2 t) (iblk m c 3 t) (ix2 p o)
    = layer m c (((cfg0.win 4).blk t).view.emb (ix2 p o))
  refine (stored_eq_denseAt _ _ _ _ _ _ _ _ (tokRow t p) p o (fun k => read_tokens m c t p k)
    (fun k => read_weight m c t k o) (read_scale m c t o) (read_bias m c t o)).trans ?_
  refine (dense_ix2 _ _ _ _ (tokRow t p) o).symm.trans (congrArg (layer m c) (funext fun a => Fin.ext ?_))
  match a with
  | ⟨0, _⟩ => show t.val * 128 + p.val = win0_4.index t (0 : Fin 2) * 128 + 1 * p.val; omega
  | ⟨1, _⟩ => show o.val = win0_4.index t (1 : Fin 2) * 4096 + 1 * o.val; omega

/-! ## The tiles cover the array -/

/-- An index of the output is in point `t`'s block iff each coordinate is in the block's range on its axis. -/
theorem mem_block (t : Fin cfg0.N) (i : S16384x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v5).slice (win0_4.rect t)).set ↔ _
  rw [View.set_slice_whole, Rect.mem_set_unit]
  exact Iff.rfl

/-- Every row lies in the tile of point ⌊row / 128⌋. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hlt : (i 0).val / 128 < cfg0.N := by rw [show cfg0.N = 128 from N_0]; omega
  obtain ⟨-, -, -, -, -, -, -, -, e0, e1⟩ := block_indices ⟨(i 0).val / 128, hlt⟩
  refine ⟨⟨(i 0).val / 128, hlt⟩, flush0_4 _, ?_⟩
  rw [mem_block]
  intro a
  match a with
  | ⟨0, _⟩ =>
    show win0_4.index ⟨(i 0).val / 128, hlt⟩ (0 : Fin 2) * 128 ≤ (i 0).val
      ∧ (i 0).val < win0_4.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_4.index ⟨(i 0).val / 128, hlt⟩ (1 : Fin 2) * 4096 ≤ (i 1).val
      ∧ (i 1).val < win0_4.index ⟨(i 0).val / 128, hlt⟩ (1 : Fin 2) * 4096 + 4096
    omega

/-! ## The run -/

/-- THE OUTPUT ARRAY after the run is the layer of the argument arrays. -/
theorem final (c : Dev nD) : (dats m 0 c).arrAt 4 cfg0.N = layer m c :=
  (dats m 0 c).arrAt_eq_of_cover 4 (layer m c) (fun t _ => flushed_eq m c t) covered

/-- Every weakly fair execution of the kernel's program terminates with the result array holding the layer of the
    argument arrays, and the arguments unchanged. -/
theorem run : θ_run defs (onTc (τ := τ) (main (F := Ideal))) ⟨m, fun _ => 0, ρ⟩ fun r => ∀ c : Dev nD,
      r.2.mem ((c : Thread nD τ).loc main_v5) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.QuantDense.Kernel

end
-- ==== Proof.lean ====
/-
  A dequantized dense layer computed tile by tile equals the layer computed whole.

  Inputs: tokens x : [16384, 4096] (float), integer weight codes q : [4096 out, 4096 in], a per-output-channel scale
  s : [4096] and a bias b : [4096] (floats). Precondition: every float input entry is finite.

  The kernel's program narrows x and the codes to a shorter float format (on the extended reals: no change of value, the
  codes read as the integers they are), transposes the codes to [in, out], and runs a grid of 128 points, point t
  computing for token rows 128·t … 128·t + 127

      out[r, o] = (∑ k, x[r, k] · q[o, k]) · s[o] + b[o]                     (scale AFTER the contraction).

  The reference dequantizes the weight first, W[o, k] = q[o, k] · s[o], and computes x · Wᵀ + b whole:

      out[r, o] = ∑ k, x[r, k] · (q[o, k] · s[o]) + b[o]                      (scale INSIDE the contraction).

  The two are equal by distributivity of the product over a finite sum, which on the extended reals needs the
  tokens and the scale to be real numbers: that is what the precondition gives (the bias is added on both sides and its
  finiteness is not used).

  Modules: Spec (the layer `dense` and the law), Finite (the precondition makes the inputs real), RefDense (the
  reference's result is `dense`), Tile (the kernel body's stored value at an entry), Tiling (the 128 tiles are the array,
  so the kernel's result is `dense`). Nothing is rewritten on the way from the kernel's program to its idealization,
  so that claim is trivial; the three termination-and-frame claims are the programs' runs with the result forgotten.
-/
import proofs.«168100_j56478819942551_2_alg».proof.Defs
import proofs.«168100_j56478819942551_2_alg».proof.Proof.Gen.Kernel
import proofs.«168100_j56478819942551_2_alg».proof.Proof.Gen.Kernel.Skeleton
import proofs.«168100_j56478819942551_2_alg».proof.Proof.Gen.Kernel.Launch
import proofs.«168100_j56478819942551_2_alg».proof.Proof.Gen.Kernel.Points
import proofs.«168100_j56478819942551_2_alg».proof.Proof.Gen.Kernel.Frame
import proofs.«168100_j56478819942551_2_alg».proof.Proof.Gen.KernelIdeal
import proofs.«168100_j56478819942551_2_alg».proof.Proof.Gen.KernelIdeal.Skeleton
import proofs.«168100_j56478819942551_2_alg».proof.Proof.Gen.KernelIdeal.Launch
import proofs.«168100_j56478819942551_2_alg».proof.Proof.Gen.KernelIdeal.Points
import proofs.«168100_j56478819942551_2_alg».proof.Proof.Gen.KernelIdeal.Frame
import proofs.«168100_j56478819942551_2_alg».proof.Proof.Gen.ReferenceIdeal
import proofs.«168100_j56478819942551_2_alg».proof.Proof.Gen.Pre_finite_inputs
import proofs.«168100_j56478819942551_2_alg».proof.Proof.Gen.KernelIdeal.Value
import proofs.«168100_j56478819942551_2_alg».proof.Proof.Gen.ReferenceIdeal.Run
import proofs.«168100_j56478819942551_2_alg».proof.Proof.Gen.ReferenceIdeal.Read
import proofs.«168100_j56478819942551_2_alg».proof.Proof.Finite
import proofs.«168100_j56478819942551_2_alg».proof.Proof.RefDense
import proofs.«168100_j56478819942551_2_alg».proof.Proof.Tiling
import Idealize.ShloMosaic.Adequacy
import Idealize.ShloMosaic.Init

noncomputable section

namespace Cert.Proof

open Idealize.ShloMosaic Idealize.SL.Sem

/-- The kernel's program, on machine words, terminates without a fault and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel's program is rewritten when it is read on the extended reals. -/
theorem preserves : Cert.preserves_Kernel_KernelIdeal := trivial

/-- From memories that agree on the arguments, the kernel's program ends with the layer `dense` of its arguments (the 128
    tiles), and the reference with the dequantize-first form, which for the real tokens and scales the precondition gives is
    the same array. -/
theorem algebraic : Cert.algebraic_KernelIdeal_ReferenceIdeal := by
  intro m ρ m' ρ' hpre hagree
  refine ⟨fun c => Cert.QuantDense.Kernel.layer m c, Cert.QuantDense.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.QuantDense.Finite.real_inputs _ _ _ _ (hpre c)
  rw [Cert.ReferenceIdeal.Read.val_main_v8_eq, (hagree c).1, (hagree c).2.1, (hagree c).2.2.1, (hagree c).2.2.2]
  exact Cert.QuantDense.Reference.result_eq_dense _ _ _ _ hx hs

theorem claim : Cert.Claim := ⟨Cert.Kernel.Gen.facts, Cert.KernelIdeal.Gen.facts, Cert.ReferenceIdeal.Gen.facts,
  Cert.Pre_finite_inputs.Gen.facts, frame_kernel, frame_kernel_ideal, frame_reference, preserves, algebraic⟩

end Cert.Proof

end
